-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S640000 : Shape := ⟨1, ![640000]⟩
abbrev S640000x50 : Shape := ⟨2, ![640000, 50]⟩
abbrev S2x640000 : Shape := ⟨2, ![2, 640000]⟩
abbrev S128x128 : Shape := ⟨2, ![128, 128]⟩
abbrev S128x50 : Shape := ⟨2, ![128, 50]⟩
abbrev S128 : Shape := ⟨1, ![128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S640000x50 : S_.BroadcastsInDim S640000x50 (![] : Fin 0 → Fin S640000x50.rank)
  reducesTo_S640000x50_S_d0_1 : S640000x50.ReducesTo [0, 1] S_
  bcast_S_S128x128 : S_.BroadcastsInDim S128x128 (![] : Fin 0 → Fin S128x128.rank)
  reducesTo_S128x128_S_d0_1 : S128x128.ReducesTo [0, 1] S_
  bcast_S_S128x50 : S_.BroadcastsInDim S128x50 (![] : Fin 0 → Fin S128x50.rank)
  reducesTo_S128x50_S_d0_1 : S128x50.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x50 .f32) (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x50 .f32 := Host.absf main_arg5
  let main_cst_6 : FVec F S_ .f32 := constant S_ .f32 0x7F800000#32
  let main_v20 : FVec F S128x50 .f32 := broadcastInDim S128x50 ![] bcast_S_S128x50 main_cst_6
  let main_v21 : IVec S128x50 1 := cmpf .olt main_v19 main_v20
  let main_c_7 : IVec S_ 1 := constantI S_ 1 1#1
  let main_v22 : IVec S_ 1 := (fun x v => Host.reduce IntOp.andi x v reducesTo_S128x50_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S20000x128 .f32) (main_arg1 : FVec F S640000 .f32) (main_arg2 : FVec F S640000x50 .f32) (main_arg3 : IVec S2x640000 32) (main_arg4 : FVec F S128x128 .f32) (main_arg5 : FVec F S128x50 .f32) (main_arg6 : FVec F S128 .f32) (main_arg7 : FVec F S128x128 .f32) (main_arg8 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S640000 .f32 := Host.absf main_arg1
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S640000x50 .f32 := Host.absf main_arg2
  let main_cst_2 : FVec F S_ .f32 := constant S_ .f32 0x7F800000#32
  let main_v10 : FVec F S640000x50 .f32 := broadcastInDim S640000x50 ![] bcast_S_S640000x50 main_cst_2
  let main_v11 : IVec S640000x50 1 := cmpf .olt main_v9 main_v10
  let main_c_3 : IVec S_ 1 := constantI S_ 1 1#1
  let main_v12 : IVec S_ 1 := (fun x v => Host.reduce IntOp.andi x v reducesTo_S640000x50_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_v13 main_v16
-- ==== Kernel.lean ====
abbrev S20000x128 : Shape := ⟨2, ![20000, 128]⟩
abbrev S640000 : Shape := ⟨1, ![640000]⟩
abbrev S640000x50 : Shape := ⟨2, ![640000, 50]⟩
abbrev S2x640000 : Shape := ⟨2, ![2, 640000]⟩
abbrev S128x128 : Shape := ⟨2, ![128, 128]⟩
abbrev S128x50 : Shape := ⟨2, ![128, 50]⟩
abbrev S128 : Shape := ⟨1, ![128]⟩
abbrev S50x128 : Shape := ⟨2, ![50, 128]⟩
abbrev S1x128 : Shape := ⟨2, ![1, 128]⟩
abbrev S640000x1 : Shape := ⟨2, ![640000, 1]⟩
abbrev S2000x128 : Shape := ⟨2, ![2000, 128]⟩
abbrev S1x640000 : Shape := ⟨2, ![1, 640000]⟩
abbrev S_ : Shape := ⟨0, ![]⟩
abbrev S640000x128 : Shape := ⟨2, ![640000, 128]⟩
abbrev S5000x128 : Shape := ⟨2, ![5000, 128]⟩
abbrev S5000x1 : Shape := ⟨2, ![5000, 1]⟩
abbrev S5000x50 : Shape := ⟨2, ![5000, 50]⟩

abbrev nBuf : Space → Nat
  | .hbm => 28
  | .vmem => 17
  | .smem => 0
  | _ => 0

abbrev bufTy : (tb : Table) → Fin (tcTables nBuf tb) → BufTy
  | .hbm, ⟨0, _⟩ => ⟨S20000x128, .f32⟩
  | .hbm, ⟨1, _⟩ => ⟨S640000, .f32⟩
  | .hbm, ⟨2, _⟩ => ⟨S640000x50, .f32⟩
  | .hbm, ⟨3, _⟩ => ⟨S2x640000, .i32⟩
  | .hbm, ⟨4, _⟩ => ⟨S128x128, .f32⟩
  | .hbm, ⟨5, _⟩ => ⟨S128x50, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S50x128, .f32⟩
  | .hbm, ⟨11, _⟩ => ⟨S128x128, .f32⟩
  | .hbm, ⟨12, _⟩ => ⟨S1x128, .f32⟩
  | .hbm, ⟨13, _⟩ => ⟨S1x128, .f32⟩
  | .hbm, ⟨14, _⟩ => ⟨S640000x1, .f32⟩
  | .hbm, ⟨15, _⟩ => ⟨S20000x128, .f32⟩
  | .hbm, ⟨16, _⟩ => ⟨S1x640000, .i32⟩
  | .hbm, ⟨17, _⟩ => ⟨S640000, .i32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S640000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S5000x128, .f32⟩
  | .local _ .vmem, ⟨6, _⟩ => ⟨S5000x128, .f32⟩
  | .local _ .vmem, ⟨7, _⟩ => ⟨S5000x1, .f32⟩
  | .local _ .vmem, ⟨8, _⟩ => ⟨S5000x1, .f32⟩
  | .local _ .vmem, ⟨9, _⟩ => ⟨S5000x50, .f32⟩
  | .local _ .vmem, ⟨10, _⟩ => ⟨S5000x50, .f32⟩
  | .local _ .vmem, ⟨11, _⟩ => ⟨S50x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x50 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S50x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  transposes_S128x128_S128x128_1_0 : S128x128.Transposes [1, 0] S128x128
  transposes_S128x50_S50x128_1_0 : S128x50.Transposes [1, 0] S50x128
  shapeCasts_S128_S1x128 : S128.ShapeCasts S1x128
  shapeCasts_S640000_S640000x1 : S640000.ShapeCasts S640000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  bcast_S640000_S640000x1_0 : S640000.BroadcastsInDim S640000x1 (![0] : Fin 1 → Fin S640000x1.rank)
  inb_S5000x50_S5000x50_0_0 : ∀ a, (![0, 0] : Fin 2 → Nat) a + S5000x50.size a ≤ S5000x50.size a
  h_S5000x50 : 0 < S5000x50.numel
  inb_S50x128_S50x128_0_0 : ∀ a, (![0, 0] : Fin 2 → Nat) a + S50x128.size a ≤ S50x128.size a
  h_S50x128 : 0 < S50x128.numel
  shapeCasts_S50x128_S50x128 : S50x128.ShapeCasts S50x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  dot_S2000x128_S128x128_S2000x128_1_0_0_1_n_n_wf : DotDims.WF S2000x128 S128x128 S2000x128 [1] [0] [0] [1] [] []
  gather_S20000x128_S640000x1_S640000x128_1_0_n_n_0_1_1128_wf : GatherDims.WF S20000x128 S640000x1 S640000x128 [1] [0] [] [0] [] 1 ![1, 128]
  dot_S5000x50_S50x128_S5000x128_1_0_0_1_n_n_wf : DotDims.WF S5000x50 S50x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S20000x128.size a
  hwx0_2 : ∀ i : grid0.Coords, EltTy.bits .f32 = 32 ∨ (Rect.block (s := S20000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S640000x128.size a
  hwx1_0 : ∀ i : grid1.Coords, EltTy.bits .f32 = 32 ∨ (Rect.block (s := S640000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S640000x1.size a
  hwx1_1 : ∀ i : grid1.Coords, EltTy.bits .f32 = 32 ∨ (Rect.block (s := S640000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x50.size a ≤ S640000x50.size a
  hwx1_2 : ∀ i : grid1.Coords, EltTy.bits .f32 = 32 ∨ (Rect.block (s := S640000x50) S5000x50.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S50x128.size a ≤ S50x128.size a
  hwx1_3 : ∀ i : grid1.Coords, EltTy.bits .f32 = 32 ∨ (Rect.block (s := S50x128) S50x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S640000x128.size a
  hwx1_7 : ∀ i : grid1.Coords, EltTy.bits .f32 = 32 ∨ (Rect.block (s := S640000x128) S5000x128.size (cc1_transform_7 i) (hinb1_7 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S5000x50_S50x128_S5000x128_1_0_0_1_n_n : DotDims S5000x50 S50x128 S5000x128 where
  lhsContracting := [1]
  rhsContracting := [0]
  lhsNonContracting := [0]
  rhsNonContracting := [1]
  lhsBatch := []
  rhsBatch := []
  wf := dot_S5000x50_S50x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S5000x50.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S50x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S20000x128 : Shape := ⟨2, ![20000, 128]⟩
abbrev S640000 : Shape := ⟨1, ![640000]⟩
abbrev S640000x50 : Shape := ⟨2, ![640000, 50]⟩
abbrev S2x640000 : Shape := ⟨2, ![2, 640000]⟩
abbrev S128x128 : Shape := ⟨2, ![128, 128]⟩
abbrev S128x50 : Shape := ⟨2, ![128, 50]⟩
abbrev S128 : Shape := ⟨1, ![128]⟩
abbrev S1x640000 : Shape := ⟨2, ![1, 640000]⟩
abbrev S_ : Shape := ⟨0, ![]⟩
abbrev S50x128 : Shape := ⟨2, ![50, 128]⟩
abbrev S640000x128 : Shape := ⟨2, ![640000, 128]⟩
abbrev S1x128 : Shape := ⟨2, ![1, 128]⟩
abbrev S640000x1 : Shape := ⟨2, ![640000, 1]⟩

abbrev nBuf : Space → Nat
  | .hbm => 63
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S640000, .f32⟩
  | .hbm, ⟨2, _⟩ => ⟨S640000x50, .f32⟩
  | .hbm, ⟨3, _⟩ => ⟨S2x640000, .i32⟩
  | .hbm, ⟨4, _⟩ => ⟨S128x128, .f32⟩
  | .hbm, ⟨5, _⟩ => ⟨S128x50, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x640000, .i32⟩
  | .hbm, ⟨10, _⟩ => ⟨S640000, .i32⟩
  | .hbm, ⟨11, _⟩ => ⟨S_, .f32⟩
  | .hbm, ⟨12, _⟩ => ⟨S640000, .f32⟩
  | .hbm, ⟨13, _⟩ => ⟨S640000, .f32⟩
  | .hbm, ⟨14, _⟩ => ⟨S640000, .f32⟩
  | .hbm, ⟨15, _⟩ => ⟨S_, .f32⟩
  | .hbm, ⟨16, _⟩ => ⟨S640000, .f32⟩
  | .hbm, ⟨17, _⟩ => ⟨S640000, .f32⟩
  | .hbm, ⟨18, _⟩ => ⟨S_, .f32⟩
  | .hbm, ⟨19, _⟩ => ⟨S640000, .f32⟩
  | .hbm, ⟨20, _⟩ => ⟨S640000, .f32⟩
  | .hbm, ⟨21, _⟩ => ⟨S50x128, .f32⟩
  | .hbm, ⟨22, _⟩ => ⟨S640000x128, .f32⟩
  | .hbm, ⟨23, _⟩ => ⟨S1x128, .f32⟩
  | .hbm, ⟨24, _⟩ => ⟨S640000x128, .f32⟩
  | .hbm, ⟨25, _⟩ => ⟨S640000x128, .f32⟩
  | .hbm, ⟨26, _⟩ => ⟨S_, .f32⟩
  | .hbm, ⟨27, _⟩ => ⟨S640000x128, .f32⟩
  | .hbm, ⟨28, _⟩ => ⟨S640000x128, .f32⟩
  | .hbm, ⟨29, _⟩ => ⟨S640000x128, .f32⟩
  | .hbm, ⟨30, _⟩ => ⟨S640000x128, .f32⟩
  | .hbm, ⟨31, _⟩ => ⟨S640000x128, .i1⟩
  | .hbm, ⟨32, _⟩ => ⟨S640000x128, .f32⟩
  | .hbm, ⟨33, _⟩ => ⟨S640000x128, .f32⟩
  | .hbm, ⟨34, _⟩ => ⟨S640000x128, .f32⟩
  | .hbm, ⟨35, _⟩ => ⟨S640000x128, .f32⟩
  | .hbm, ⟨36, _⟩ => ⟨S640000x128, .f32⟩
  | .hbm, ⟨37, _⟩ => ⟨S640000x128, .f32⟩
  | .hbm, ⟨38, _⟩ => ⟨S640000x128, .f32⟩
  | .hbm, ⟨39, _⟩ => ⟨S640000x128, .f32⟩
  | .hbm, ⟨40, _⟩ => ⟨S_, .f32⟩
  | .hbm, ⟨41, _⟩ => ⟨S640000x128, .f32⟩
  | .hbm, ⟨42, _⟩ => ⟨S640000x128, .f32⟩
  | .hbm, ⟨43, _⟩ => ⟨S128x128, .f32⟩
  | .hbm, ⟨44, _⟩ => ⟨S640000x128, .f32⟩
  | .hbm, ⟨45, _⟩ => ⟨S1x128, .f32⟩
  | .hbm, ⟨46, _⟩ => ⟨S640000x128, .f32⟩
  | .hbm, ⟨47, _⟩ => ⟨S640000x128, .f32⟩
  | .hbm, ⟨48, _⟩ => ⟨S640000x1, .f32⟩
  | .hbm, ⟨49, _⟩ => ⟨S640000x128, .f32⟩
  | .hbm, ⟨50, _⟩ => ⟨S640000x128, .f32⟩
  | .hbm, ⟨51, _⟩ => ⟨S128x128, .f32⟩
  | .hbm, ⟨52, _⟩ => ⟨S20000x128, .f32⟩
  | .hbm, ⟨53, _⟩ => ⟨S_, .i32⟩
  | .hbm, ⟨54, _⟩ => ⟨S640000, .i32⟩
  | .hbm, ⟨55, _⟩ => ⟨S640000, .i1⟩
  | .hbm, ⟨56, _⟩ => ⟨S_, .i32⟩
  | .hbm, ⟨57, _⟩ => ⟨S640000, .i32⟩
  | .hbm, ⟨58, _⟩ => ⟨S640000, .i32⟩
  | .hbm, ⟨59, _⟩ => ⟨S640000, .i32⟩
  | .hbm, ⟨60, _⟩ => ⟨S640000x1, .i32⟩
  | .hbm, ⟨61, _⟩ => ⟨S640000x128, .f32⟩
  | .hbm, ⟨62, _⟩ => ⟨S640000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_v14 : Ref sig .tc := ⟨.hbm, 39, rfl⟩
abbrev main_cst_2 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c : Ref sig .tc := ⟨.hbm, 53, rfl⟩
abbrev main_v27 : Ref sig .tc := ⟨.hbm, 54, rfl⟩
abbrev main_v28 : Ref sig .tc := ⟨.hbm, 55, rfl⟩
abbrev main_c_3 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  transposes_S128x50_S50x128_1_0 : S128x50.Transposes [1, 0] S50x128
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  transposes_S128x128_S128x128_1_0 : S128x128.Transposes [1, 0] S128x128
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  dot_S640000x50_S50x128_S640000x128_1_0_0_1_n_n_wf : DotDims.WF S640000x50 S50x128 S640000x128 [1] [0] [0] [1] [] []
  dot_S640000x128_S128x128_S640000x128_1_0_0_1_n_n_wf : DotDims.WF S640000x128 S128x128 S640000x128 [1] [0] [0] [1] [] []
  dot_S20000x128_S128x128_S20000x128_1_0_0_1_n_n_wf : DotDims.WF S20000x128 S128x128 S20000x128 [1] [0] [0] [1] [] []
  gather_S20000x128_S640000x1_S640000x128_1_0_n_n_0_1_1128_wf : GatherDims.WF S20000x128 S640000x1 S640000x128 [1] [0] [] [0] [] 1 ![1, 128]

variable [Facts₀]

def dot_S640000x50_S50x128_S640000x128_1_0_0_1_n_n : DotDims S640000x50 S50x128 S640000x128 where
  lhsContracting := [1]
  rhsContracting := [0]
  lhsNonContracting := [0]
  rhsNonContracting := [1]
  lhsBatch := []
  rhsBatch := []
  wf := dot_S640000x50_S50x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf

class Facts : Prop extends Facts₀ where

variable [Facts]
-- ==== Proof.KernelRun.lean ====
/-
  The idealized kernel's run, with its result named.

  @main is four segments: the host's transposes and reshapes, the node-feature product (a pipelined region), the host's
  row gather, and the per-edge region.  Every weakly fair execution walks the buffer contents through those four
  boundaries; at the last one the result buffer holds what the per-edge region's write-backs leave in it, and each
  argument holds what it was launched with.  This module states exactly that: the result at the last boundary's
  contents, the arguments unchanged.
-/
import proofs.«151497_j70961449664973_1_alg».proof.Proof.Gen.KernelIdeal.Frame

set_option maxRecDepth 16384

noncomputable section

namespace Cert.KernelIdeal.EdgeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the last
    boundary gives it — what the per-edge region's write-backs leave — and every argument as launched. -/
theorem run_last : θ_run defs (onTc (τ := τ) (main (F := F))) ⟨m, fun _ => 0, ρ⟩ (fun r => ∀ c : Dev nD,
      r.2.mem ((c.tc : Thread nD τ).loc main_v16) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v16 (by decide))).trans (W4_arr m ρ c 7),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.EdgeRun

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.NodeLinear.lean ====
/-
  The node-feature product: what the first region leaves in its output array.

  The region walks the 20000 rows of the node features in 10 blocks of 2000 rows; at each block the body multiplies the
  block by the whole (transposed) weight matrix into a zero accumulator.  Entry (p, q) of a block's product is
  Σ_k x(p, k) · w(k, q); row p of block t is row 2000·t + p of the array, and every row lies in exactly the block
  ⌊row / 2000⌋.  So the array ends holding, at (r, q), Σ_k x(r, k) · w(k, q) of the arrays the region was entered with.
-/
import proofs.«151497_j70961449664973_1_alg».proof.Proof.Gen.KernelIdeal.Frame
import proofs.«151497_j70961449664973_1_alg».proof.Proof.LibPlainMatmul
import Idealize.ShloMosaic.Lib.Pipeline.Value
import Idealize.ShloMosaic.Lib.ValueIdx

set_option maxRecDepth 16384

noncomputable section

namespace Cert.KernelIdeal.NodeLinear

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The product of a [20000, 128] array by a [128, 128] array, entry by entry. -/
def prod (x : S20000x128.Idx → EReal) (w : S128x128.Idx → EReal) : S20000x128.Idx → EReal :=
  fun i => ∑ k : Fin 128, x (ix2 (i 0) k) * w (ix2 k (i 1))

theorem origin : (![0, 0] : Fin 2 → Nat) = fun _ => 0 := funext fun a => by fin_cases a <;> rfl

/-- Entry (p, q) of the body's product of a 2000-row block by the weights. -/
theorem block_entry (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  refine (Cert.PlainMatmul.matmul_zero_apply (m := 2000) (K := 128) (n := 128)
    dot_S2000x128_S128x128_S2000x128_1_0_0_1_n_n_wf none _ _ p q).trans ?_
  rw [shapeCast_self]
  rfl

/-- The index maps over the grid: the feature and output windows move one block of rows per point, the weights stay. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the product of the arrays the region was entered with. -/
theorem flushed_eq (c : Dev nD) (t : Fin cfg0.N) :
    (dat0 V c).flushed 2 t = ((cfg0.win 2).blk t).view.read (Elt Ideal) (prod (V c main_arg0) (V c main_v0)) := by
  show (cfg0.win 2).cut (grid0.coords t) ((dat0 V c).after 2 t) = _
  rw [after0_2]
  unfold out0_2
  rw [View.canon_unit_zero origin]
  simp only [View.ld_unit_zero (S := S2000x128) origin, View.ld_unit_zero (S := S128x128) origin]
  obtain ⟨e0, e1, e2, e3, e4, e5⟩ := index_facts t
  have ht : t.val < 10 := t.isLt
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (ix2 p q)
    = prod (V c main_arg0) (V c main_v0) (((cfg0.win 2).blk t).view.emb (ix2 p q))
  refine (block_entry _ _ p q).trans ?_
  unfold prod
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  have l : iblk0 V c 0 t (ix2 p k) = V c main_arg0 (ix2 ((((cfg0.win 2).blk t).view.emb (ix2 p q)) 0) k) :=
    congrArg (V c main_arg0) h0
  have r : iblk0 V c 1 t (ix2 k q) = V c main_v0 (ix2 k ((((cfg0.win 2).blk t).view.emb (ix2 p q)) 1)) :=
    congrArg (V c main_v0) h1
  rw [l, r]

/-- An index is in point t's block iff each coordinate is in the block's range on its axis. -/
theorem mem_blk (t : Fin cfg0.N) (i : S20000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v6).slice (win0_2.rect t)).set ↔ _
  rw [View.set_slice_whole, Rect.mem_set_unit]
  exact Iff.rfl

/-- Every row lies in the block ⌊row / 2000⌋. -/
theorem covered (i : S20000x128.Idx) :
    ∃ t : Fin cfg0.N, (cfg0.win 2).flush t = true ∧ i ∈ ((cfg0.win 2).blk t).view.set := by
  have hi0 : (i 0).val < 20000 := (i 0).isLt
  have hi1 : (i 1).val < 128 := (i 1).isLt
  let t : Fin cfg0.N := ⟨(i 0).val / 2000, by show (i 0).val / 2000 < 10; omega⟩
  obtain ⟨e0, e1, e2, e3, e4, e5⟩ := index_facts t
  have e4' : win0_2.index t (0 : Fin 2) = (i 0).val / 2000 := e4
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the region: the product of the arrays the region was entered with. -/
theorem final (c : Dev nD) : (dat0 V c).arrAt 2 cfg0.N = prod (V c main_arg0) (V c main_v0) :=
  (dat0 V c).arrAt_eq_of_cover 2 (prod (V c main_arg0) (V c main_v0)) (fun t _ => flushed_eq V c t) covered

end Cert.KernelIdeal.NodeLinear

end
-- ==== Proof.LibSoftplus.lean ====
/-
  softplus on the extended reals, and the two ways programs spell it.

  `softplus z = max z 0 + log (1 + e^{−|z|})`, the overflow-free form, with `|z| = max z (−z)`.  A compiled `logaddexp(z, 0)`
  wraps that sum in a test for a NaN difference, `z − 0 ≠ z − 0`, whose other branch is `z + 0`; no extended real differs
  from itself, so the test answers 0 whether it is the ordered or the unordered comparison, and the sum is taken.  A host
  program negates `|z − 0|`; a kernel body subtracts it from the zero word.  Both are `softplus z`: first for one number
  (the zero word written as its f32 pattern), then at an index of a vector of any shape.  Nothing here mentions a program.
-/
import Idealize.ShloMosaic.PureOps.Ideal.Laws
import Idealize.ShloMosaic.Lib.ValueIdx

noncomputable section

namespace Cert.Softplus

open Idealize.ShloMosaic Idealize.ShloMosaic.ValueIdx

/-- `softplus z = max z 0 + log (1 + e^{−|z|})`, with `|z| = max z (−z)`. -/
def softplus (z : EReal) : EReal := max z 0 + Ideal.log1p (Ideal.exp (-(max z (-z))))

/-- No extended real differs from itself: the unordered test `d ≠ d` answers 0. -/
theorem cmp_une_self (d : EReal) : Ideal.cmp .une d d = 0#1 := by
  simp [Ideal.cmp]

/-- The ordered test `d ≠ d` answers 0 as well. -/
theorem cmp_one_self (d : EReal) : Ideal.cmp .one d d = 0#1 := by
  simp [Ideal.cmp]

/-- The spelling with a negation: guard, `z + 0` on the dead branch, `max z 0 + log1p (exp (−|z − 0|))` on the live one. -/
theorem softplus_of_neg (z : EReal) :
    Scalar.select (Ideal.cmp .une (z - Ideal.ofBits .f32 0x00000000#32) (z - Ideal.ofBits .f32 0x00000000#32))
        (z + Ideal.ofBits .f32 0x00000000#32)
        (max z (Ideal.ofBits .f32 0x00000000#32)
          + Ideal.log1p (Ideal.exp (-(max (z - Ideal.ofBits .f32 0x00000000#32) (-(z - Ideal.ofBits .f32 0x00000000#32))))))
      = softplus z := by
  rw [cmp_une_self, select_zero, Ideal.ofBits_zero_f32, sub_zero]
  rfl

/-- The spelling with a subtraction from zero: `0 − |z − 0|` in place of `−|z − 0|`, under the ordered guard. -/
theorem softplus_of_zero_sub (z : EReal) :
    Scalar.select (Ideal.cmp .one (z - Ideal.ofBits .f32 0x00000000#32) (z - Ideal.ofBits .f32 0x00000000#32))
        (z + Ideal.ofBits .f32 0x00000000#32)
        (max z (Ideal.ofBits .f32 0x00000000#32)
          + Ideal.log1p (Ideal.exp (Ideal.ofBits .f32 0x00000000#32
              - max (z - Ideal.ofBits .f32 0x00000000#32) (-(z - Ideal.ofBits .f32 0x00000000#32)))))
      = softplus z := by
  rw [cmp_one_self, select_zero, Ideal.ofBits_zero_f32, sub_zero, zero_sub]
  rfl

/-! ## At an index of a vector -/

variable {s : Shape}

/-- A host program's softplus of a vector `x`, over any vector `z` that reads as the zero word everywhere (the zero
    splat), is `softplus (x j)` at every index `j`. -/
theorem host_softplus_apply (x z : FVec Ideal s .f32) (hz : ∀ j, z j = Ideal.ofBits .f32 0x00000000#32) (j : s.Idx) :
    select (cmpf .une (subf x z) (subf x z)) (addf x z)
        (addf (maximumf x z) (Host.log1p (Host.exp (Host.negf (Host.absf (subf x z)))))) j
      = softplus (x j) := by
  show Scalar.select (Ideal.cmp .une (x j - z j) (x j - z j)) (x j + z j)
      (max (x j) (z j) + Ideal.log1p (Ideal.exp (-(max (x j - z j) (-(x j - z j)))))) = _
  rw [hz j]
  exact softplus_of_neg (x j)

/-- A kernel body's softplus of a vector `x`, its zeros the broadcast zero word, is `softplus (x j)` at every index `j`. -/
theorem kernel_softplus_apply (x : FVec Ideal s .f32) (j : s.Idx) :
    select
        (cmpf .one (subf x (broadcast s (FloatOps.ofBits (F := Ideal) .f32 0x00000000#32)))
          (subf x (broadcast s (FloatOps.ofBits (F := Ideal) .f32 0x00000000#32))))
        (addf x (broadcast s (FloatOps.ofBits (F := Ideal) .f32 0x00000000#32)))
        (addf (maximumf x (broadcast s (FloatOps.ofBits (F := Ideal) .f32 0x00000000#32)))
          (log1p (exp (subf (broadcast s (FloatOps.ofBits (F := Ideal) .f32 0x00000000#32))
            (absf (subf x (broadcast s (FloatOps.ofBits (F := Ideal) .f32 0x00000000#32)))))))) j
      = softplus (x j) :=
  softplus_of_zero_sub (x j)

end Cert.Softplus

end
-- ==== Proof.EdgeWeight.lean ====
/-
  The per-edge filter weight, as one formula on the extended reals.

  For edge e and output feature q:

      W(e, q) = ( Σ_k  h(e, k) · w2(k, q)  +  b2(q) ) · C(e),
      h(e, k) = softplus( Σ_j rbf(e, j) · w1(j, k) + b1(k) ) − log 2        (the shifted softplus),
      C(e)    = ½ · ( cos( dist(e) · π/10 ) + 1 )                           (the cosine cutoff),

  the constants being the f32 words the programs carry (log 2, ½, π/10 and 1 are never evaluated: both programs carry
  the same words).  The edge's message is the gathered node feature times this weight.  Everything is stated over
  plain functions of coordinates, so the same formula reads a 5000-edge block and the whole 640000-edge array.
-/
import proofs.«151497_j70961449664973_1_alg».proof.Proof.LibSoftplus
import Idealize.ShloMosaic.PureOps.Ideal
import Idealize.ShloMosaic.Lib.ValueIdx

noncomputable section

namespace Cert.EdgeWeight

open Idealize.ShloMosaic Idealize.ShloMosaic.ValueIdx

/-- The shifted softplus: softplus z − log 2, with log 2 the programs' f32 word. -/
def shifted (z : EReal) : EReal := Cert.Softplus.softplus z - Ideal.ofBits .f32 0x3F317218#32

/-- The cosine cutoff ½ · (cos (d · π/10) + 1), its constants the programs' f32 words. -/
def cutoff (d : EReal) : EReal :=
  Ideal.ofBits .f32 0x3F000000#32 * (Ideal.cos (d * Ideal.ofBits .f32 0x3EA0D97C#32) + Ideal.ofBits .f32 0x3F800000#32)

/-- The filter weight of edge e at feature q. -/
def weight {E : ℕ} (rbf : Fin E → Fin 50 → EReal) (w1 : Fin 50 → Fin 128 → EReal) (b1 : Fin 128 → EReal)
    (w2 : Fin 128 → Fin 128 → EReal) (b2 : Fin 128 → EReal) (dist : Fin E → EReal) (e : Fin E) (q : Fin 128) : EReal :=
  ((∑ k : Fin 128, shifted ((∑ j : Fin 50, rbf e j * w1 j k) + b1 k) * w2 k q) + b2 q) * cutoff (dist e)

/-- The array of messages from the programs' ARGUMENTS: the gathered node features `g` times the filter weight, the
    weight matrices read transposed (the programs multiply by W1ᵀ and W2ᵀ), the biases and the distances read as given. -/
def message (g : (⟨2, ![640000, 128]⟩ : Shape).Idx → EReal) (dist : (⟨1, ![640000]⟩ : Shape).Idx → EReal)
    (rbf : (⟨2, ![640000, 50]⟩ : Shape).Idx → EReal) (W1 : (⟨2, ![128, 50]⟩ : Shape).Idx → EReal)
    (b1 : (⟨1, ![128]⟩ : Shape).Idx → EReal) (W2 : (⟨2, ![128, 128]⟩ : Shape).Idx → EReal)
    (b2 : (⟨1, ![128]⟩ : Shape).Idx → EReal) : (⟨2, ![640000, 128]⟩ : Shape).Idx → EReal :=
  fun i => g i * weight (fun e j => rbf (ix2 e j)) (fun j k => W1 (ix2 k j)) (fun k => b1 (ix1 k))
    (fun k q => W2 (ix2 q k)) (fun q => b2 (ix1 q)) (fun e => dist (ix1 e)) (i 0) (i 1)

end Cert.EdgeWeight

end
-- ==== Proof.EdgeRegion.lean ====
/-
  The per-edge region: what it leaves in the result array.

  The region walks the 640000 edges in 128 blocks of 5000.  At a block the body forms, for each of its edges p and each
  feature q, the gathered node feature g(p, q) times the filter weight W(p, q) of module EdgeWeight, read off the block's
  rows of the radial basis and the distance column and off the whole (transposed) weight matrices and bias rows.  Row p
  of block t is edge 5000·t + p, and every edge lies in exactly the block ⌊edge / 5000⌋.  So the array ends holding
  g(e, q) · W(e, q) of the arrays the region was entered with.
-/
import proofs.«151497_j70961449664973_1_alg».proof.Proof.Gen.KernelIdeal.Frame
import proofs.«151497_j70961449664973_1_alg».proof.Proof.LibPlainMatmul
import proofs.«151497_j70961449664973_1_alg».proof.Proof.LibSoftplus
import proofs.«151497_j70961449664973_1_alg».proof.Proof.EdgeWeight
import Idealize.ShloMosaic.Lib.Pipeline.Value
import Idealize.ShloMosaic.Lib.ValueIdx
import Idealize.ShloMosaic.Lib.ValueLayout

set_option maxRecDepth 16384

noncomputable section

namespace Cert.KernelIdeal.EdgeRegion

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.EdgeWeight

/-- A column [a, 1] broadcast to [a, b] reads, at (p, c), the column's entry of row p. -/
theorem column_bcast {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The array of messages: gathered feature times filter weight, from the arrays the region reads. -/
def messages (g : S640000x128.Idx → EReal) (dist : S640000x1.Idx → EReal) (rbf : S640000x50.Idx → EReal)
    (w1 : S50x128.Idx → EReal) (b1 : S1x128.Idx → EReal) (w2 : S128x128.Idx → EReal) (b2 : S1x128.Idx → EReal) :
    S640000x128.Idx → EReal :=
  fun i => g i * weight (fun e j => rbf (ix2 e j)) (fun j k => w1 (ix2 j k)) (fun k => b1 (ix2 (0 : Fin 1) k))
    (fun k q => w2 (ix2 k q)) (fun q => b2 (ix2 (0 : Fin 1) q)) (fun e => dist (ix2 e (0 : Fin 1))) (i 0) (i 1)

theorem origin : (![0, 0] : Fin 2 → Nat) = fun _ => 0 := funext fun a => by fin_cases a <;> rfl

/-! ## The body at an entry -/

/-- The pre-activation of the hidden layer at (p, k): the basis row times the first weights, plus the bias. -/
theorem hidden_pre (x2 : Vec Ideal S5000x50 .f32) (x3 : Vec Ideal S50x128 .f32) (x4 : Vec Ideal S1x128 .f32)
    (p : Fin 5000) (k : Fin 128) :
    (addf (matmul dot_S5000x50_S50x128_S5000x128_1_0_0_1_n_n none (truncf .bf16 x2 bitsLt_bf16_f32)
        (truncf .bf16 x3 bitsLt_bf16_f32) (constant S5000x128 .f32 0x00000000#32))
      (broadcastTo S5000x128 x4 broadcasts_S1x128_S5000x128) : FVec Ideal S5000x128 .f32) (ix2 p k)
      = (∑ j : Fin 50, x2 (ix2 p j) * x3 (ix2 j k)) + x4 (ix2 (0 : Fin 1) k) := by
  rw [addf_apply, broadcastTo_1b_ab_apply]
  refine congrArg (· + x4 (ix2 (0 : Fin 1) k)) ?_
  exact Cert.PlainMatmul.matmul_zero_apply (m := 5000) (K := 50) (n := 128)
    dot_S5000x50_S50x128_S5000x128_1_0_0_1_n_n_wf none _ _ p k

/-- The second layer at (p, q): the shifted softplus of the hidden row times the second weights, plus the bias. -/
theorem layers_entry (x2 : Vec Ideal S5000x50 .f32) (x3 : Vec Ideal S50x128 .f32) (x4 : Vec Ideal S1x128 .f32)
    (x5 : Vec Ideal S128x128 .f32) (x6 : Vec Ideal S1x128 .f32) (p : Fin 5000) (q : Fin 128) :
    k1_pay2 (F := Ideal) x2 x3 x4 x5 x6 (ix2 p q)
      = (∑ k : Fin 128, shifted ((∑ j : Fin 50, x2 (ix2 p j) * x3 (ix2 j k)) + x4 (ix2 (0 : Fin 1) k)) * x5 (ix2 k q))
        + x6 (ix2 (0 : Fin 1) q) := by
  unfold k1_pay2
  simp only [shapeCast_self]
  rw [addf_apply, broadcastTo_1b_ab_apply]
  refine congrArg (· + x6 (ix2 (0 : Fin 1) q)) ?_
  refine (Cert.PlainMatmul.matmul_zero_apply (m := 5000) (K := 128) (n := 128)
    dot_S5000x128_S128x128_S5000x128_1_0_0_1_n_n_wf none _ _ p q).trans ?_
  refine Finset.sum_congr rfl fun k _ => ?_
  refine congrArg (· * x5 (ix2 k q)) ?_
  refine (congrArg (· - Ideal.ofBits .f32 0x3F317218#32)
    (Cert.Softplus.kernel_softplus_apply _ (ix2 p k))).trans ?_
  exact congrArg shifted (hidden_pre x2 x3 x4 p k)

/-- The cutoff column at row p. -/
theorem cutoff_entry (x1 : Vec Ideal S5000x1 .f32) (p : Fin 5000) :
    mulf (broadcast S5000x1 (Scalar.ofBits (F := Ideal) .f32 0x3F000000#32))
      (addf (k1_pay3 (F := Ideal) x1) (broadcast S5000x1 (Scalar.ofBits (F := Ideal) .f32 0x3F800000#32))) (ix2 p (0 : Fin 1))
      = cutoff (x1 (ix2 p (0 : Fin 1))) := by
  unfold k1_pay3
  simp only [shapeCast_self]
  rfl

/-- The body's stored value at (p, q): the gathered feature times the filter weight. -/
theorem body_entry (x0 : Vec Ideal S5000x128 .f32) (x1 : Vec Ideal S5000x1 .f32) (x2 : Vec Ideal S5000x50 .f32)
    (x3 : Vec Ideal S50x128 .f32) (x4 : Vec Ideal S1x128 .f32) (x5 : Vec Ideal S128x128 .f32) (x6 : Vec Ideal S1x128 .f32)
    (p : Fin 5000) (q : Fin 128) :
    k1_pay1 (F := Ideal) (k1_pay2 x2 x3 x4 x5 x6) (k1_pay3 x1) (Scalar.ofBits .f32 0x3F800000#32) x0 (ix2 p q)
      = x0 (ix2 p q) * weight (fun e j => x2 (ix2 e j)) (fun j k => x3 (ix2 j k)) (fun k => x4 (ix2 (0 : Fin 1) k))
          (fun k q => x5 (ix2 k q)) (fun q => x6 (ix2 (0 : Fin 1) q)) (fun e => x1 (ix2 e (0 : Fin 1))) p q := by
  unfold k1_pay1
  simp only [shapeCast_self]
  rw [mulf_apply, mulf_apply, column_bcast, cutoff_entry, layers_entry]
  rfl

/-! ## From the blocks to the array -/

/-- The index maps over the grid: the gathered features, the distance column, the basis and the output move one block of
    edges per point; the weights and biases stay. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

variable (V : (c : Dev nD) → (b : Ref sig .tc) → Buf (Elt Ideal) ((c : Thread nD τ).loc b))

/-- What point t writes back is block t of the messages computed from the arrays the region was entered with. -/
theorem flushed_eq (c : Dev nD) (t : Fin cfg1.N) :
    (dat1 V c).flushed 7 t = ((cfg1.win 7).blk t).view.read (Elt Ideal)
      (messages (V c main_v15) (V c main_v5) (V c main_arg2) (V c main_v1) (V c main_v3) (V c main_v2) (V c main_v4)) := by
  show (cfg1.win 7).cut (grid1.coords t) ((dat1 V c).after 7 t) = _
  rw [after1_7]
  unfold out1_7
  rw [View.canon_unit_zero origin]
  simp only [View.ld_unit_zero (S := S5000x128) origin, View.ld_unit_zero (S := S5000x1) origin,
    View.ld_unit_zero (S := S5000x50) origin, View.ld_unit_zero (S := S50x128) origin,
    View.ld_unit_zero (S := S1x128) origin, View.ld_unit_zero (S := S128x128) origin]
  obtain ⟨a0, a1, b0, b1, c0, c1, d0, d1, e0, e1, f0, f1, g0, g1, o0, o1⟩ := index_facts t
  funext j
  obtain ⟨p, q, rfl⟩ : ∃ (p : Fin 5000) (q : Fin 128), j = ix2 p q := ⟨j 0, j 1, eq_ix2 j⟩
  show k1_pay1 (F := Ideal) (k1_pay2 (iblk1 V c 2 t) (iblk1 V c 3 t) (iblk1 V c 4 t) (iblk1 V c 5 t) (iblk1 V c 6 t))
      (k1_pay3 (iblk1 V c 1 t)) (Scalar.ofBits .f32 0x3F800000#32) (iblk1 V c 0 t) (ix2 p q)
    = messages (V c main_v15) (V c main_v5) (V c main_arg2) (V c main_v1) (V c main_v3) (V c main_v2) (V c main_v4)
        (((cfg1.win 7).blk t).view.emb (ix2 p q))
  refine (body_entry _ _ _ _ _ _ _ p q).trans ?_
  have h0 : ((cfg1.win 0).blk t).view.emb (ix2 p q) = ((cfg1.win 7).blk t).view.emb (ix2 p q) := by
    funext a; apply Fin.ext
    match a with
    | ⟨0, _⟩ => show win1_0.index t (0 : Fin 2) * 5000 + 1 * p.val = win1_7.index t (0 : Fin 2) * 5000 + 1 * p.val; omega
    | ⟨1, _⟩ => show win1_0.index t (1 : Fin 2) * 128 + 1 * q.val = win1_7.index t (1 : Fin 2) * 128 + 1 * q.val; omega
  have h1 : ((cfg1.win 1).blk t).view.emb (ix2 p (0 : Fin 1))
      = ix2 ((((cfg1.win 7).blk t).view.emb (ix2 p q)) 0) (0 : Fin 1) := by
    funext a; apply Fin.ext
    match a with
    | ⟨0, _⟩ => show win1_1.index t (0 : Fin 2) * 5000 + 1 * p.val = win1_7.index t (0 : Fin 2) * 5000 + 1 * p.val; omega
    | ⟨1, _⟩ => show win1_1.index t (1 : Fin 2) * 1 + 1 * 0 = 0; omega
  have h2 : ∀ j : Fin 50, ((cfg1.win 2).blk t).view.emb (ix2 p j)
      = ix2 ((((cfg1.win 7).blk t).view.emb (ix2 p q)) 0) j := fun j => by
    funext a; apply Fin.ext
    match a with
    | ⟨0, _⟩ => show win1_2.index t (0 : Fin 2) * 5000 + 1 * p.val = win1_7.index t (0 : Fin 2) * 5000 + 1 * p.val; omega
    | ⟨1, _⟩ => show win1_2.index t (1 : Fin 2) * 50 + 1 * j.val = j.val; omega
  have h3 : ∀ (j : Fin 50) (k : Fin 128), ((cfg1.win 3).blk t).view.emb (ix2 j k) = ix2 j k := fun j k => by
    funext a; apply Fin.ext
    match a with
    | ⟨0, _⟩ => show win1_3.index t (0 : Fin 2) * 50 + 1 * j.val = j.val; omega
    | ⟨1, _⟩ => show win1_3.index t (1 : Fin 2) * 128 + 1 * k.val = k.val; omega
  have h4 : ∀ k : Fin 128, ((cfg1.win 4).blk t).view.emb (ix2 (0 : Fin 1) k) = ix2 (0 : Fin 1) k := fun k => by
    funext a; apply Fin.ext
    match a with
    | ⟨0, _⟩ => show win1_4.index t (0 : Fin 2) * 1 + 1 * 0 = 0; omega
    | ⟨1, _⟩ => show win1_4.index t (1 : Fin 2) * 128 + 1 * k.val = k.val; omega
  have h5 : ∀ k : Fin 128, ((cfg1.win 5).blk t).view.emb (ix2 k q)
      = ix2 k ((((cfg1.win 7).blk t).view.emb (ix2 p q)) 1) := fun k => by
    funext a; apply Fin.ext
    match a with
    | ⟨0, _⟩ => show win1_5.index t (0 : Fin 2) * 128 + 1 * k.val = k.val; omega
    | ⟨1, _⟩ => show win1_5.index t (1 : Fin 2) * 128 + 1 * q.val = win1_7.index t (1 : Fin 2) * 128 + 1 * q.val; omega
  have h6 : ((cfg1.win 6).blk t).view.emb (ix2 (0 : Fin 1) q)
      = ix2 (0 : Fin 1) ((((cfg1.win 7).blk t).view.emb (ix2 p q)) 1) := by
    funext a; apply Fin.ext
    match a with
    | ⟨0, _⟩ => show win1_6.index t (0 : Fin 2) * 1 + 1 * 0 = 0; omega
    | ⟨1, _⟩ => show win1_6.index t (1 : Fin 2) * 128 + 1 * q.val = win1_7.index t (1 : Fin 2) * 128 + 1 * q.val; omega
  have r0 : iblk1 V c 0 t (ix2 p q) = V c main_v15 (((cfg1.win 7).blk t).view.emb (ix2 p q)) :=
    congrArg (V c main_v15) h0
  have r1 : iblk1 V c 1 t (ix2 p (0 : Fin 1))
      = V c main_v5 (ix2 ((((cfg1.win 7).blk t).view.emb (ix2 p q)) 0) (0 : Fin 1)) := congrArg (V c main_v5) h1
  have r2 : ∀ j : Fin 50, iblk1 V c 2 t (ix2 p j)
      = V c main_arg2 (ix2 ((((cfg1.win 7).blk t).view.emb (ix2 p q)) 0) j) := fun j => congrArg (V c main_arg2) (h2 j)
  have r3 : ∀ (j : Fin 50) (k : Fin 128), iblk1 V c 3 t (ix2 j k) = V c main_v1 (ix2 j k) :=
    fun j k => congrArg (V c main_v1) (h3 j k)
  have r4 : ∀ k : Fin 128, iblk1 V c 4 t (ix2 (0 : Fin 1) k) = V c main_v3 (ix2 (0 : Fin 1) k) :=
    fun k => congrArg (V c main_v3) (h4 k)
  have r5 : ∀ k : Fin 128, iblk1 V c 5 t (ix2 k q)
      = V c main_v2 (ix2 k ((((cfg1.win 7).blk t).view.emb (ix2 p q)) 1)) := fun k => congrArg (V c main_v2) (h5 k)
  have r6 : iblk1 V c 6 t (ix2 (0 : Fin 1) q)
      = V c main_v4 (ix2 (0 : Fin 1) ((((cfg1.win 7).blk t).view.emb (ix2 p q)) 1)) := congrArg (V c main_v4) h6
  unfold messages weight
  refine congrArg₂ (fun a b : EReal => a * b) r0 ?_
  refine congrArg₂ (fun a b : EReal => a * b) ?_ (congrArg cutoff r1)
  refine congrArg₂ (fun a b : EReal => a + b) ?_ r6
  refine Finset.sum_congr rfl fun k _ => ?_
  refine congrArg₂ (fun a b : EReal => a * b) (congrArg shifted ?_) (r5 k)
  refine congrArg₂ (fun a b : EReal => a + b) ?_ (r4 k)
  refine Finset.sum_congr rfl fun j _ => ?_
  exact congrArg₂ (fun a b : EReal => a * b) (r2 j) (r3 j k)

/-- An index is in point t's block iff each coordinate is in the block's range on its axis. -/
theorem mem_blk (t : Fin cfg1.N) (i : S640000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v16).slice (win1_7.rect t)).set ↔ _
  rw [View.set_slice_whole, Rect.mem_set_unit]
  exact Iff.rfl

/-- Every edge lies in the block ⌊edge / 5000⌋. -/
theorem covered (i : S640000x128.Idx) :
    ∃ t : Fin cfg1.N, (cfg1.win 7).flush t = true ∧ i ∈ ((cfg1.win 7).blk t).view.set := by
  have hi0 : (i 0).val < 640000 := (i 0).isLt
  have hi1 : (i 1).val < 128 := (i 1).isLt
  let t : Fin cfg1.N := ⟨(i 0).val / 5000, by show (i 0).val / 5000 < 128; omega⟩
  obtain ⟨a0, a1, b0, b1, c0, c1, d0, d1, e0, e1, f0, f1, g0, g1, o0, o1⟩ := index_facts t
  have o0' : win1_7.index t (0 : Fin 2) = (i 0).val / 5000 := o0
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- The result array after the region: the messages computed from the arrays the region was entered with. -/
theorem final (c : Dev nD) : (dat1 V c).arrAt 7 cfg1.N
    = messages (V c main_v15) (V c main_v5) (V c main_arg2) (V c main_v1) (V c main_v3) (V c main_v2) (V c main_v4) :=
  (dat1 V c).arrAt_eq_of_cover 7 _ (fun t _ => flushed_eq V c t) covered

end Cert.KernelIdeal.EdgeRegion

end
-- ==== Proof.HostSide.lean ====
/-
  What the two regions find in the arrays they read.

  Before the first region the host transposes the three weight matrices and reshapes the two biases to one-row matrices
  and the distances to a column.  Between the regions it takes row 0 of the edge index, adds the node count to the
  negative entries, and gathers those rows of the first region's output.  No host line and no region writes an
  argument, and the second stretch writes none of the first stretch's results; so each array a region reads is the
  host's own term of the launch contents (for the gathered rows: of the first region's output array).
-/
import proofs.«151497_j70961449664973_1_alg».proof.Proof.Gen.KernelIdeal.Frame
import Idealize.ShloMosaic.Lib.StableHlo.Run

set_option maxRecDepth 16384

noncomputable section

namespace Cert.KernelIdeal.HostSide

open Idealize.ShloMosaic Idealize.ShloMosaic.TcCoe Idealize.SL.Sem Idealize.ShloMosaic.StableHlo
open Cert.KernelIdeal Cert.KernelIdeal.Gen

variable {F : FTy → Type} [FloatOps F]

/-- Row 0 of the edge index as a column of row numbers, a negative entry raised by the node count. -/
def sourceRows (x3 : (⟨S2x640000, .i32⟩ : BufTy).Contents (Elt F)) : (⟨S640000x1, .i32⟩ : BufTy).Contents (Elt F) :=
  broadcastInDim S640000x1 ![0] bcast_S640000_S640000x1_0
    (select
      (cmpi .slt (shapeCast _ (extractStridedSlice S1x640000 ![0, 0] x3 slices_S2x640000_S1x640000_0_0) shapeCasts_S1x640000_S640000)
        (broadcastInDim S640000 ![] bcast_S_S640000 (constantI S_ 32 0#32)))
      (addi (shapeCast _ (extractStridedSlice S1x640000 ![0, 0] x3 slices_S2x640000_S1x640000_0_0) shapeCasts_S1x640000_S640000)
        (broadcastInDim S640000 ![] bcast_S_S640000 (constantI S_ 32 20000#32)))
      (shapeCast _ (extractStridedSlice S1x640000 ![0, 0] x3 slices_S2x640000_S1x640000_0_0) shapeCasts_S1x640000_S640000))

variable (m : (ℓ : Loc nD τ sig) → Buf (Elt F) ℓ) (ρ : Dev nD → PrngReg) (c : Dev nD)

/-! ## At the first region's entry -/

theorem entry0_feats : V1 m ρ c main_arg0 = m ((c.tc : Thread nD τ).loc main_arg0) := by
  show StableHlo.after hostOps0 (W0 m ρ c) (Proc.devRef .tc main_arg0) = _
  after_results <;> rfl

theorem entry0_weights : V1 m ρ c main_v0
    = transpose S128x128 [1, 0] (m ((c.tc : Thread nD τ).loc main_arg4)) transposes_S128x128_S128x128_1_0 := by
  show StableHlo.after hostOps0 (W0 m ρ c) (Proc.devRef .tc main_v0) = _
  after_results <;> rfl

/-! ## At the second region's entry -/

theorem entry1_gathered : V3 m ρ c main_v15
    = Host.gather gather_S20000x128_S640000x1_S640000x128_1_0_n_n_0_1_1128 ((dat0 (V1 m ρ) c).arrAt 2 cfg0.N)
        (sourceRows (m ((c.tc : Thread nD τ).loc main_arg3))) := by
  show StableHlo.after hostOps1 (W2 m ρ c) (Proc.devRef .tc main_v15) = _
  after_results
  rw [W2_arr m ρ c 2, W2_of_ne m ρ c main_arg3 (by decide)]
  have e3 : W1 m ρ c (Proc.devRef .tc main_arg3) = m ((c.tc : Thread nD τ).loc main_arg3) := by
    show StableHlo.after hostOps0 (W0 m ρ c) (Proc.devRef .tc main_arg3) = _
    after_results <;> rfl
  rw [e3]
  rfl

theorem entry1_dist : V3 m ρ c main_v5
    = shapeCast S640000x1 (m ((c.tc : Thread nD τ).loc main_arg1)) shapeCasts_S640000_S640000x1 := by
  show StableHlo.after hostOps1 (W2 m ρ c) (Proc.devRef .tc main_v5) = _
  after_results
  rw [W2_of_ne m ρ c main_v5 (by decide)]
  show StableHlo.after hostOps0 (W0 m ρ c) (Proc.devRef .tc main_v5) = _
  after_results <;> rfl

theorem entry1_rbf : V3 m ρ c main_arg2 = m ((c.tc : Thread nD τ).loc main_arg2) := by
  show StableHlo.after hostOps1 (W2 m ρ c) (Proc.devRef .tc main_arg2) = _
  after_results
  rw [W2_of_ne m ρ c main_arg2 (by decide)]
  show StableHlo.after hostOps0 (W0 m ρ c) (Proc.devRef .tc main_arg2) = _
  after_results <;> rfl

theorem entry1_w1 : V3 m ρ c main_v1
    = transpose S50x128 [1, 0] (m ((c.tc : Thread nD τ).loc main_arg5)) transposes_S128x50_S50x128_1_0 := by
  show StableHlo.after hostOps1 (W2 m ρ c) (Proc.devRef .tc main_v1) = _
  after_results
  rw [W2_of_ne m ρ c main_v1 (by decide)]
  show StableHlo.after hostOps0 (W0 m ρ c) (Proc.devRef .tc main_v1) = _
  after_results <;> rfl

theorem entry1_b1 : V3 m ρ c main_v3
    = shapeCast S1x128 (m ((c.tc : Thread nD τ).loc main_arg6)) shapeCasts_S128_S1x128 := by
  show StableHlo.after hostOps1 (W2 m ρ c) (Proc.devRef .tc main_v3) = _
  after_results
  rw [W2_of_ne m ρ c main_v3 (by decide)]
  show StableHlo.after hostOps0 (W0 m ρ c) (Proc.devRef .tc main_v3) = _
  after_results <;> rfl

theorem entry1_w2 : V3 m ρ c main_v2
    = transpose S128x128 [1, 0] (m ((c.tc : Thread nD τ).loc main_arg7)) transposes_S128x128_S128x128_1_0 := by
  show StableHlo.after hostOps1 (W2 m ρ c) (Proc.devRef .tc main_v2) = _
  after_results
  rw [W2_of_ne m ρ c main_v2 (by decide)]
  show StableHlo.after hostOps0 (W0 m ρ c) (Proc.devRef .tc main_v2) = _
  after_results <;> rfl

theorem entry1_b2 : V3 m ρ c main_v4
    = shapeCast S1x128 (m ((c.tc : Thread nD τ).loc main_arg8)) shapeCasts_S128_S1x128 := by
  show StableHlo.after hostOps1 (W2 m ρ c) (Proc.devRef .tc main_v4) = _
  after_results
  rw [W2_of_ne m ρ c main_v4 (by decide)]
  show StableHlo.after hostOps0 (W0 m ρ c) (Proc.devRef .tc main_v4) = _
  after_results <;> rfl

end Cert.KernelIdeal.HostSide

end
-- ==== Proof.KernelValue.lean ====
/-
  The idealized kernel's result as one function of its arguments.

  The run ends with the result array at what the per-edge region's write-backs leave (module KernelRun); that is the array
  of messages computed from the arrays that region reads (module EdgeRegion); those arrays are the host's transposes and
  reshapes of the arguments and the gathered rows of the node-feature product (modules HostSide, NodeLinear).  Reading
  the transposes and reshapes at their entries gives the messages as a function of the arguments themselves: the gathered
  node features times the filter weight of module EdgeWeight.
-/
import proofs.«151497_j70961449664973_1_alg».proof.Proof.KernelRun
import proofs.«151497_j70961449664973_1_alg».proof.Proof.NodeLinear
import proofs.«151497_j70961449664973_1_alg».proof.Proof.EdgeRegion
import proofs.«151497_j70961449664973_1_alg».proof.Proof.HostSide
import proofs.«151497_j70961449664973_1_alg».proof.Proof.EdgeWeight
import Idealize.ShloMosaic.Lib.Pipeline.Value
import Idealize.ShloMosaic.Lib.ValueIdx
import Idealize.ShloMosaic.Lib.ValueLayout

set_option maxRecDepth 16384

noncomputable section

namespace Cert.KernelIdeal.EdgeValue

open Idealize.ShloMosaic Idealize.ShloMosaic.TcCoe Idealize.SL.Sem Idealize.ShloMosaic.ValueIdx
open Cert.KernelIdeal Cert.KernelIdeal.Gen Cert.EdgeWeight

/-- An [a] array cast to a column [a, 1] reads, at (e, u), entry e, whatever the unit coordinate u. -/
theorem column_cast {α : Type} {a : ℕ} (x : (⟨1, ![a]⟩ : Shape).Idx → α)
    (h : (⟨1, ![a]⟩ : Shape).ShapeCasts ⟨2, ![a, 1]⟩) (e : Fin a) (u : Fin 1) :
    shapeCast ⟨2, ![a, 1]⟩ x h (ix2 e u) = x (ix1 e) :=
  shapeCast_apply x h _ _ (by
    have hu : u.val = 0 := by omega
    rw [Shape.rowMajor_val_two, Shape.rowMajor_val_one]
    show e.val = e.val * 1 + u.val
    omega)

/-- The gathered node features: the rows of the node-feature product that the edge index names. -/
def gathered (x0 : S20000x128.Idx → EReal) (x3 : (⟨S2x640000, .i32⟩ : BufTy).Contents (Elt Ideal))
    (x4 : S128x128.Idx → EReal) : S640000x128.Idx → EReal :=
  Host.gather gather_S20000x128_S640000x1_S640000x128_1_0_n_n_0_1_1128
    (NodeLinear.prod x0 (transpose S128x128 [1, 0] x4 transposes_S128x128_S128x128_1_0)) (HostSide.sourceRows x3)

/-- The messages over the host's transposes and reshapes are the messages over the arguments. -/
theorem messages_of_args (g : S640000x128.Idx → EReal) (x1 : S640000.Idx → EReal) (x2 : S640000x50.Idx → EReal)
    (x5 : S128x50.Idx → EReal) (x6 : S128.Idx → EReal) (x7 : S128x128.Idx → EReal) (x8 : S128.Idx → EReal) :
    EdgeRegion.messages g (shapeCast S640000x1 x1 shapeCasts_S640000_S640000x1) x2
        (transpose S50x128 [1, 0] x5 transposes_S128x50_S50x128_1_0) (shapeCast S1x128 x6 shapeCasts_S128_S1x128)
        (transpose S128x128 [1, 0] x7 transposes_S128x128_S128x128_1_0) (shapeCast S1x128 x8 shapeCasts_S128_S1x128)
      = message g x1 x2 x5 x6 x7 x8 := by
  have t5 : ∀ (j : Fin 50) (k : Fin 128),
      transpose S50x128 [1, 0] x5 transposes_S128x50_S50x128_1_0 (ix2 j k) = x5 (ix2 k j) :=
    fun j k => transpose_ix2_apply x5 _ j k
  have t7 : ∀ (k q : Fin 128),
      transpose S128x128 [1, 0] x7 transposes_S128x128_S128x128_1_0 (ix2 k q) = x7 (ix2 q k) :=
    fun k q => transpose_ix2_apply x7 _ k q
  have c6 : ∀ k : Fin 128, shapeCast S1x128 x6 shapeCasts_S128_S1x128 (ix2 (0 : Fin 1) k) = x6 (ix1 k) :=
    fun k => shapeCast_a_1a_apply x6 _ 0 k
  have c8 : ∀ q : Fin 128, shapeCast S1x128 x8 shapeCasts_S128_S1x128 (ix2 (0 : Fin 1) q) = x8 (ix1 q) :=
    fun q => shapeCast_a_1a_apply x8 _ 0 q
  have c1 : ∀ e : Fin 640000,
      shapeCast S640000x1 x1 shapeCasts_S640000_S640000x1 (ix2 e (0 : Fin 1)) = x1 (ix1 e) :=
    fun e => column_cast x1 _ e 0
  funext i
  obtain ⟨e, q, rfl⟩ : ∃ (e : Fin 640000) (q : Fin 128), i = ix2 e q := ⟨i 0, i 1, eq_ix2 i⟩
  unfold EdgeRegion.messages message weight
  simp only [t5, t7, c6, c8, c1]

variable (m : (ℓ : Loc nD τ sig) → Buf (Elt Ideal) ℓ) (ρ : Dev nD → PrngReg)

/-- What the per-edge region's write-backs leave: the messages of the arguments. -/
theorem result_eq (c : Dev nD) : (dat1 (V3 m ρ) c).arrAt 7 cfg1.N
    = message (gathered (m ((c.tc : Thread nD τ).loc main_arg0)) (m ((c.tc : Thread nD τ).loc main_arg3))
          (m ((c.tc : Thread nD τ).loc main_arg4)))
        (m ((c.tc : Thread nD τ).loc main_arg1)) (m ((c.tc : Thread nD τ).loc main_arg2))
        (m ((c.tc : Thread nD τ).loc main_arg5)) (m ((c.tc : Thread nD τ).loc main_arg6))
        (m ((c.tc : Thread nD τ).loc main_arg7)) (m ((c.tc : Thread nD τ).loc main_arg8)) := by
  rw [EdgeRegion.final (V3 m ρ) c, HostSide.entry1_gathered, HostSide.entry1_dist, HostSide.entry1_rbf,
    HostSide.entry1_w1, HostSide.entry1_b1, HostSide.entry1_w2, HostSide.entry1_b2, NodeLinear.final (V1 m ρ) c,
    HostSide.entry0_feats, HostSide.entry0_weights]
  exact messages_of_args _ _ _ _ _ _ _

/-- Every weakly fair execution of the idealized kernel terminates, nothing faulting, with the result array at the
    messages of the arguments and every argument as launched. -/
theorem run : θ_run defs (onTc (τ := τ) (main (F := Ideal))) ⟨m, fun _ => 0, ρ⟩ (fun r => ∀ c : Dev nD,
      r.2.mem ((c.tc : Thread nD τ).loc main_v16)
        = message (gathered (m ((c.tc : Thread nD τ).loc main_arg0)) (m ((c.tc : Thread nD τ).loc main_arg3))
              (m ((c.tc : Thread nD τ).loc main_arg4)))
            (m ((c.tc : Thread nD τ).loc main_arg1)) (m ((c.tc : Thread nD τ).loc main_arg2))
            (m ((c.tc : Thread nD τ).loc main_arg5)) (m ((c.tc : Thread nD τ).loc main_arg6))
            (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (EdgeRun.run_last m ρ)

end Cert.KernelIdeal.EdgeValue

end
-- ==== Proof.RefValue.lean ====
/-
  The idealized reference's result as the same function of its arguments.

  The reference multiplies the gathered rows of the node-feature product by the filter weight it computes for the whole
  edge array at once: two matrix products against the transposed weights, the biases broadcast over the edges, the called
  softplus shifted by log 2, and the cosine cutoff broadcast over the features.  Read at an entry (e, q), each stage is its
  operands at entries the shapes fix; chained together they are the filter weight of module EdgeWeight at (e, q).
-/
import proofs.«151497_j70961449664973_1_alg».proof.Proof.Gen.ReferenceIdeal.Read
import proofs.«151497_j70961449664973_1_alg».proof.Proof.LibSoftplus
import proofs.«151497_j70961449664973_1_alg».proof.Proof.EdgeWeight
import Idealize.ShloMosaic.Lib.ValueIdx

set_option maxRecDepth 16384

noncomputable section

namespace Cert.ReferenceIdeal.EdgeValue

open Idealize.ShloMosaic Idealize.ShloMosaic.TcCoe Idealize.SL.Sem Idealize.ShloMosaic.ValueIdx
open Cert.ReferenceIdeal Cert.ReferenceIdeal.Gen Cert.ReferenceIdeal.Read Cert.EdgeWeight

/-- Two rank-2 indices with the same coordinates are equal. -/
local macro "same_ix2" : tactic =>
  `(tactic| (funext a; apply Fin.ext; match a with | ⟨0, _⟩ => rfl | ⟨1, _⟩ => rfl))
/-- Two rank-1 indices with the same coordinate are equal. -/
local macro "same_ix1" : tactic =>
  `(tactic| (funext a; apply Fin.ext; match a with | ⟨0, _⟩ => rfl))

/-- The called softplus at an index is the softplus of its argument there. -/
theorem softplus_entry (x2 : (⟨S640000x50, .f32⟩ : BufTy).Contents (Elt Ideal)) (x5 : (⟨S128x50, .f32⟩ : BufTy).Contents (Elt Ideal))
    (x6 : (⟨S128, .f32⟩ : BufTy).Contents (Elt Ideal)) (i : S640000x128.Idx) :
    val_main_v14 (F := Ideal) x2 x5 x6 i = Cert.Softplus.softplus (val_main_v13 (F := Ideal) x2 x5 x6 i) :=
  Cert.Softplus.host_softplus_apply (val_main_v13 (F := Ideal) x2 x5 x6) (val_main_call0_v0 (F := Ideal))
    (fun j => (val_main_call0_v0_apply j).trans (val_main_call0_cst_apply _)) i

/-- The reference's weight stage at (e, q) is the filter weight. -/
theorem weight_entry (x1 : (⟨S640000, .f32⟩ : BufTy).Contents (Elt Ideal)) (x2 : (⟨S640000x50, .f32⟩ : BufTy).Contents (Elt Ideal))
    (x5 : (⟨S128x50, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (e : Fin 640000) (q : Fin 128) :
    val_main_v24 (F := Ideal) x1 x2 x5 x6 x7 x8 (ix2 e q)
      = weight (fun e j => x2 (ix2 e j)) (fun j k => x5 (ix2 k j)) (fun k => x6 (ix1 k))
          (fun k q => x7 (ix2 q k)) (fun q => x8 (ix1 q)) (fun e => x1 (ix1 e)) e q := by
  have a1 : ∀ k : Fin 128, lidx_main_v18 (ix2 e q) k = ix2 e k := fun k => by same_ix2
  have a2 : ∀ k : Fin 128, idx_main_v17 (ridx_main_v18 (ix2 e q) k) = ix2 q k := fun k => by same_ix2
  have a3 : idx_main_v19 (idx_main_v20 (ix2 e q)) = ix1 q := by same_ix1
  have a4 : idx_main_v22 (idx_main_v23 (ix2 e q)) = ix1 e := by same_ix1
  have b1 : ∀ (k : Fin 128) (j : Fin 50), lidx_main_v10 (ix2 e k) j = ix2 e j := fun k j => by same_ix2
  have b2 : ∀ (k : Fin 128) (j : Fin 50), idx_main_v9 (ridx_main_v10 (ix2 e k) j) = ix2 k j := fun k j => by same_ix2
  have b3 : ∀ k : Fin 128, idx_main_v11 (idx_main_v12 (ix2 e k)) = ix1 k := fun k => by same_ix1
  simp only [val_main_v24_apply, val_main_v21_apply, val_main_v18_apply, val_main_v20_apply, val_main_v19_apply,
    val_main_v23_apply, val_main_v22_apply, val_main_v8_apply, val_main_v7_apply, val_main_cst_1_apply,
    val_main_v6_apply, val_main_v5_apply, val_main_cst_0_apply, val_main_v4_apply, val_main_v3_apply, val_main_v2_apply,
    val_main_cst_apply, a1, a2, a3, a4, val_main_v16_apply, val_main_v15_apply, val_main_cst_2_apply, val_main_v17_apply,
    softplus_entry, val_main_v13_apply, val_main_v10_apply, val_main_v12_apply, val_main_v11_apply, val_main_v9_apply,
    b1, b2, b3]
  rfl

/-- The reference's result term is the messages of the arguments, the gathered rows its own gather stage. -/
theorem value_eq (x0 : (⟨S20000x128, .f32⟩ : BufTy).Contents (Elt Ideal)) (x1 : (⟨S640000, .f32⟩ : BufTy).Contents (Elt Ideal))
    (x2 : (⟨S640000x50, .f32⟩ : BufTy).Contents (Elt Ideal)) (x3 : (⟨S2x640000, .i32⟩ : BufTy).Contents (Elt Ideal))
    (x4 : (⟨S128x128, .f32⟩ : BufTy).Contents (Elt Ideal)) (x5 : (⟨S128x50, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) :
    val_main_v34 (F := Ideal) x0 x1 x2 x3 x4 x5 x6 x7 x8
      = message (val_main_v33 (F := Ideal) x0 x3 x4) x1 x2 x5 x6 x7 x8 := by
  funext i
  obtain ⟨e, q, rfl⟩ : ∃ (e : Fin 640000) (q : Fin 128), i = ix2 e q := ⟨i 0, i 1, eq_ix2 i⟩
  rw [val_main_v34_apply, weight_entry]
  rfl

end Cert.ReferenceIdeal.EdgeValue

end
-- ==== Proof.GatherBridge.lean ====
/-
  The gathered node features are the same array in the two programs.

  Both programs gather rows of the node-feature product at the same row numbers: row 0 of the edge index, a negative
  entry raised by the node count — the same host operations in the same order, so the same array of row numbers.  The
  product itself is, on the kernel's side, what its first region leaves (Σ_k x(r, k) · wᵀ(k, q), module NodeLinear) and,
  on the reference's side, one dot_general against the transposed weights: entry by entry the same sum.
-/
import proofs.«151497_j70961449664973_1_alg».proof.Proof.KernelValue
import proofs.«151497_j70961449664973_1_alg».proof.Proof.Gen.ReferenceIdeal.Read
import Idealize.ShloMosaic.Lib.ValueIdx

set_option maxRecDepth 16384

noncomputable section

namespace Cert.Proof.Gathered

open Idealize.ShloMosaic Idealize.ShloMosaic.TcCoe Idealize.SL.Sem Idealize.ShloMosaic.ValueIdx

/-- Two rank-2 indices with the same coordinates are equal. -/
local macro "same_ix2" : tactic =>
  `(tactic| (funext a; apply Fin.ext; match a with | ⟨0, _⟩ => rfl | ⟨1, _⟩ => rfl))

/-- The node-feature product: the kernel's first region and the reference's dot_general agree entry by entry. -/
theorem product_eq (x0 : (⟨Cert.ReferenceIdeal.S20000x128, .f32⟩ : BufTy).Contents (Elt Ideal))
    (x4 : (⟨Cert.ReferenceIdeal.S128x128, .f32⟩ : BufTy).Contents (Elt Ideal)) :
    Cert.KernelIdeal.NodeLinear.prod x0
        (transpose Cert.KernelIdeal.S128x128 [1, 0] x4 Cert.KernelIdeal.Gen.transposes_S128x128_S128x128_1_0)
      = Cert.ReferenceIdeal.Read.val_main_v26 (F := Ideal) x0 x4 := by
  funext i
  obtain ⟨r, q, rfl⟩ : ∃ (r : Fin 20000) (q : Fin 128), i = ix2 r q := ⟨i 0, i 1, eq_ix2 i⟩
  rw [Cert.ReferenceIdeal.Read.val_main_v26_apply]
  unfold Cert.KernelIdeal.NodeLinear.prod
  refine Finset.sum_congr rfl fun k _ => ?_
  have l : Cert.ReferenceIdeal.Read.lidx_main_v26 (ix2 r q) k = ix2 r k := by same_ix2
  have rr : Cert.ReferenceIdeal.Read.ridx_main_v26 (ix2 r q) k = ix2 k q := by same_ix2
  rw [l, rr]
  rfl

/-- The row numbers: the same host operations on the edge index, in the same order. -/
theorem rows_eq (x3 : (⟨Cert.ReferenceIdeal.S2x640000, .i32⟩ : BufTy).Contents (Elt Ideal)) :
    Cert.KernelIdeal.HostSide.sourceRows (F := Ideal) x3 = Cert.ReferenceIdeal.Read.val_main_v32 (F := Ideal) x3 := by
  unfold Cert.KernelIdeal.HostSide.sourceRows Cert.ReferenceIdeal.Read.val_main_v32 Cert.ReferenceIdeal.Read.val_main_v31
    Cert.ReferenceIdeal.Read.val_main_v30 Cert.ReferenceIdeal.Read.val_main_v29 Cert.ReferenceIdeal.Read.val_main_v28
    Cert.ReferenceIdeal.Read.val_main_v27 Cert.ReferenceIdeal.Read.val_main_v1 Cert.ReferenceIdeal.Read.val_main_v0
    Cert.ReferenceIdeal.Read.val_main_c Cert.ReferenceIdeal.Read.val_main_c_3
  rfl

/-- The gathered node features of the kernel are the reference's gather stage. -/
theorem gathered_eq (x0 : (⟨Cert.ReferenceIdeal.S20000x128, .f32⟩ : BufTy).Contents (Elt Ideal))
    (x3 : (⟨Cert.ReferenceIdeal.S2x640000, .i32⟩ : BufTy).Contents (Elt Ideal))
    (x4 : (⟨Cert.ReferenceIdeal.S128x128, .f32⟩ : BufTy).Contents (Elt Ideal)) :
    Cert.KernelIdeal.EdgeValue.gathered x0 x3 x4 = Cert.ReferenceIdeal.Read.val_main_v33 (F := Ideal) x0 x3 x4 := by
  unfold Cert.KernelIdeal.EdgeValue.gathered Cert.ReferenceIdeal.Read.val_main_v33
  rw [product_eq, rows_eq]
  rfl

end Cert.Proof.Gathered

end
-- ==== Proof.lean ====
/-
  The certificate of the edge-update kernel against its reference.

  The kernel computes, for 640000 edges and 128 features,

      out(e, q) = nf(src(e), q) · W(e, q),      nf = node_feats · W_linᵀ,

  W the filter weight of Proof/EdgeWeight.lean (a two-layer perceptron on the radial basis with a shifted softplus,
  times a cosine cutoff of the distance), src(e) row 0 of the edge index.  It does so in two pipelined regions with a host
  row gather between them; the reference does it in one host program.  On the extended reals the two results are the same
  array: the node-feature product is the same sum entry by entry, the gather reads the same rows, and the weight is the
  same formula — the matrix products as plain sums, the two spellings of softplus one function, the changes of float
  format the identity, the transposes and reshapes read at their entries.  No law of the extended reals beyond that is
  used, so the inputs' finiteness is never opened.

  The three frames are the generated ones (the reference's its generated run with the result dropped); no operation was
  rewritten by the idealization, so there is nothing to preserve.
-/
import proofs.«151497_j70961449664973_1_alg».proof.Defs
import proofs.«151497_j70961449664973_1_alg».proof.Proof.Gen.Kernel
import proofs.«151497_j70961449664973_1_alg».proof.Proof.Gen.Kernel.Skeleton
import proofs.«151497_j70961449664973_1_alg».proof.Proof.Gen.Kernel.Launch
import proofs.«151497_j70961449664973_1_alg».proof.Proof.Gen.Kernel.Points
import proofs.«151497_j70961449664973_1_alg».proof.Proof.Gen.Kernel.Frame
import proofs.«151497_j70961449664973_1_alg».proof.Proof.Gen.KernelIdeal
import proofs.«151497_j70961449664973_1_alg».proof.Proof.Gen.KernelIdeal.Skeleton
import proofs.«151497_j70961449664973_1_alg».proof.Proof.Gen.KernelIdeal.Launch
import proofs.«151497_j70961449664973_1_alg».proof.Proof.Gen.KernelIdeal.Points
import proofs.«151497_j70961449664973_1_alg».proof.Proof.Gen.KernelIdeal.Frame
import proofs.«151497_j70961449664973_1_alg».proof.Proof.Gen.ReferenceIdeal
import proofs.«151497_j70961449664973_1_alg».proof.Proof.Gen.Pre_finite_inputs
import proofs.«151497_j70961449664973_1_alg».proof.Proof.Gen.ReferenceIdeal.Run
import proofs.«151497_j70961449664973_1_alg».proof.Proof.Gen.ReferenceIdeal.Read
import proofs.«151497_j70961449664973_1_alg».proof.Proof.KernelValue
import proofs.«151497_j70961449664973_1_alg».proof.Proof.RefValue
import proofs.«151497_j70961449664973_1_alg».proof.Proof.GatherBridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs end with the messages of the (agreeing) arguments in their result arrays. -/
theorem algebraic : Cert.algebraic_KernelIdeal_ReferenceIdeal := by
  intro m ρ m' ρ' _ hagree
  refine ⟨_, Cert.KernelIdeal.EdgeValue.run m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v34_eq, Cert.ReferenceIdeal.EdgeValue.value_eq,
    ← Cert.Proof.Gathered.gathered_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
